-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x56x56 : Shape := ⟨4, ![32, 256, 56, 56]⟩
abbrev S32x256x18x18 : Shape := ⟨4, ![32, 256, 18, 18]⟩
abbrev S_ : Shape := ⟨0, ![]⟩

class Facts : Prop where
  bcast_S_S32x256x56x56 : S_.BroadcastsInDim S32x256x56x56 (![] : Fin 0 → Fin S32x256x56x56.rank)
  reducesTo_S32x256x56x56_S_d0_1_2_3 : S32x256x56x56.ReducesTo [0, 1, 2, 3] S_
  h_S_ : 0 < S_.numel

variable [Facts]

def fn {F : FTy → Type} [FloatOps F] (main_arg0 : FVec F S32x256x56x56 .f32) (main_arg1 : IVec S32x256x56x56 32) (main_arg2 : IVec S32x256x18x18 32) : IVec S_ 1 :=
  let main_v0 : FVec F S32x256x56x56 .f32 := Host.absf main_arg0
  let main_cst : FVec F S_ .f32 := constant S_ .f32 0x7F800000#32
  let main_v1 : FVec F S32x256x56x56 .f32 := broadcastInDim S32x256x56x56 ![] bcast_S_S32x256x56x56 main_cst
  let main_v2 : IVec S32x256x56x56 1 := cmpf .olt main_v0 main_v1
  let main_c : IVec S_ 1 := constantI S_ 1 1#1
  let main_v3 : IVec S_ 1 := (fun x v => Host.reduce IntOp.andi x v reducesTo_S32x256x56x56_S_d0_1_2_3 h_S_) main_v2 main_c
  main_v3
-- ==== Kernel.lean ====
abbrev S32x256x56x56 : Shape := ⟨4, ![32, 256, 56, 56]⟩
abbrev S32x256x18x18 : Shape := ⟨4, ![32, 256, 18, 18]⟩
abbrev S32x256x18x3x18 : Shape := ⟨5, ![32, 256, 18, 3, 18]⟩
abbrev S32x256x54x18 : Shape := ⟨4, ![32, 256, 54, 18]⟩
abbrev S32x256x54x18x3 : Shape := ⟨5, ![32, 256, 54, 18, 3]⟩
abbrev S32x256x54x54 : Shape := ⟨4, ![32, 256, 54, 54]⟩
abbrev S_ : Shape := ⟨0, ![]⟩
abbrev S1x128x56x56 : Shape := ⟨4, ![1, 128, 56, 56]⟩
abbrev S1x128x56 : Shape := ⟨3, ![1, 128, 56]⟩
abbrev S1x128x56x1 : Shape := ⟨4, ![1, 128, 56, 1]⟩
abbrev S1x128x1 : Shape := ⟨3, ![1, 128, 1]⟩
abbrev S1x128x1x1 : Shape := ⟨4, ![1, 128, 1, 1]⟩

abbrev nBuf : Space → Nat
  | .hbm => 12
  | .vmem => 8
  | .smem => 0
  | _ => 0

abbrev bufTy : (tb : Table) → Fin (tcTables nBuf tb) → BufTy
  | .hbm, ⟨0, _⟩ => ⟨S32x256x56x56, .f32⟩
  | .hbm, ⟨1, _⟩ => ⟨S32x256x56x56, .i32⟩
  | .hbm, ⟨2, _⟩ => ⟨S32x256x18x18, .i32⟩
  | .hbm, ⟨3, _⟩ => ⟨S32x256x18x18, .f32⟩
  | .hbm, ⟨4, _⟩ => ⟨S32x256x18x3x18, .f32⟩
  | .hbm, ⟨5, _⟩ => ⟨S32x256x54x18, .f32⟩
  | .hbm, ⟨6, _⟩ => ⟨S32x256x54x18x3, .f32⟩
  | .hbm, ⟨7, _⟩ => ⟨S32x256x54x54, .f32⟩
  | .hbm, ⟨8, _⟩ => ⟨S_, .i32⟩
  | .hbm, ⟨9, _⟩ => ⟨S_, .f32⟩
  | .hbm, ⟨10, _⟩ => ⟨S32x256x56x56, .f32⟩
  | .hbm, ⟨11, _⟩ => ⟨S32x256x56x56, .f32⟩
  | .local _ .vmem, ⟨0, _⟩ => ⟨S1x128x56x56, .f32⟩
  | .local _ .vmem, ⟨1, _⟩ => ⟨S1x128x56x56, .f32⟩
  | .local _ .vmem, ⟨2, _⟩ => ⟨S1x128x56x56, .i32⟩
  | .local _ .vmem, ⟨3, _⟩ => ⟨S1x128x56x56, .i32⟩
  | .local _ .vmem, ⟨4, _⟩ => ⟨S1x128x56x56, .f32⟩
  | .local _ .vmem, ⟨5, _⟩ => ⟨S1x128x56x56, .f32⟩
  | .local _ .vmem, ⟨6, _⟩ => ⟨S1x128x56x56, .f32⟩
  | .local _ .vmem, ⟨7, _⟩ => ⟨S1x128x56x56, .f32⟩
  | _, _ => ⟨S32x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x56x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x56x56 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x56x56 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x56x56 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S32x256x18x18_S32x256x18x3x18_0_1_2_4 : S32x256x18x18.BroadcastsInDim S32x256x18x3x18 (![0, 1, 2, 4] : Fin 4 → Fin S32x256x18x3x18.rank)
  shapeCasts_S32x256x18x3x18_S32x256x54x18 : S32x256x18x3x18.ShapeCasts S32x256x54x18
  bcast_S32x256x54x18_S32x256x54x18x3_0_1_2_3 : S32x256x54x18.BroadcastsInDim S32x256x54x18x3 (![0, 1, 2, 3] : Fin 4 → Fin S32x256x54x18x3.rank)
  shapeCasts_S32x256x54x18x3_S32x256x54x54 : S32x256x54x18x3.ShapeCasts S32x256x54x54
  pads_S32x256x54x54_S32x256x56x56_000_000_020_020 : S32x256x54x54.Pads (![0, 0, 0, 0] : Fin 4 → Nat) ![0, 0, 2, 2] ![0, 0, 0, 0] S32x256x56x56
  h_S_ : 0 < S_.numel
  inb_S1x128x56x56_S1x128x56x56_0_0_0_0 : ∀ a, (![0, 0, 0, 0] : Fin 4 → Nat) a + S1x128x56x56.size a ≤ S1x128x56x56.size a
  h_S1x128x56x56 : 0 < S1x128x56x56.numel
  reduces_S1x128x56x56_S1x128x56 : S1x128x56x56.Reduces [3] S1x128x56
  shapeCasts_S1x128x56_S1x128x56x1 : S1x128x56.ShapeCasts S1x128x56x1
  reduces_S1x128x56x1_S1x128x1 : S1x128x56x1.Reduces [2] S1x128x1
  shapeCasts_S1x128x1_S1x128x1x1 : S1x128x1.ShapeCasts S1x128x1x1
  broadcasts_S1x128x1x1_S1x128x56x56 : S1x128x1x1.Broadcasts S1x128x56x56
  natLt_1_32 : 1 < 32
  shapeCasts_S1x128x56x56_S1x128x56x56 : S1x128x56x56.ShapeCasts S1x128x56x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x56x56.size a ≤ S32x256x56x56.size a
  hwx0_0 : ∀ i : grid0.Coords, EltTy.bits .f32 = 32 ∨ (Rect.block (s := S32x256x56x56) S1x128x56x56.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x56x56.size a ≤ S32x256x56x56.size a
  hwx0_1 : ∀ i : grid0.Coords, EltTy.bits .i32 = 32 ∨ (Rect.block (s := S32x256x56x56) S1x128x56x56.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x56x56.size a ≤ S32x256x56x56.size a
  hwx0_2 : ∀ i : grid0.Coords, EltTy.bits .f32 = 32 ∨ (Rect.block (s := S32x256x56x56) S1x128x56x56.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x56x56.size a ≤ S32x256x56x56.size a
  hwx0_3 : ∀ i : grid0.Coords, EltTy.bits .f32 = 32 ∨ (Rect.block (s := S32x256x56x56) S1x128x56x56.size (cc0_transform_3 i) (hinb0_3 i)).WholeWords (EltTy.packing .f32)

variable [Facts₀]

abbrev win0_0 : Pipeline.Window sig grid0 :=
  Pipeline.Window.ofSpec (Memref.whole main_arg0) S1x128x56x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x56x56.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128x56x56.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x128x56x56.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x256x56x56 : Shape := ⟨4, ![32, 256, 56, 56]⟩
abbrev S32x256x18x18 : Shape := ⟨4, ![32, 256, 18, 18]⟩
abbrev S_ : Shape := ⟨0, ![]⟩
abbrev S32x256 : Shape := ⟨2, ![32, 256]⟩
abbrev S32x256x1x1 : Shape := ⟨4, ![32, 256, 1, 1]⟩
abbrev S32x256x18x3x18 : Shape := ⟨5, ![32, 256, 18, 3, 18]⟩
abbrev S32x256x54x18 : Shape := ⟨4, ![32, 256, 54, 18]⟩
abbrev S32x256x54x18x3 : Shape := ⟨5, ![32, 256, 54, 18, 3]⟩
abbrev S32x256x54x54 : Shape := ⟨4, ![32, 256, 54, 54]⟩

abbrev nBuf : Space → Nat
  | .hbm => 31
  | .vmem => 0
  | .smem => 0
  | _ => 0

abbrev bufTy : (tb : Table) → Fin (tcTables nBuf tb) → BufTy
  | .hbm, ⟨0, _⟩ => ⟨S32x256x56x56, .f32⟩
  | .hbm, ⟨1, _⟩ => ⟨S32x256x56x56, .i32⟩
  | .hbm, ⟨2, _⟩ => ⟨S32x256x18x18, .i32⟩
  | .hbm, ⟨3, _⟩ => ⟨S_, .f32⟩
  | .hbm, ⟨4, _⟩ => ⟨S32x256, .f32⟩
  | .hbm, ⟨5, _⟩ => ⟨S32x256x1x1, .f32⟩
  | .hbm, ⟨6, _⟩ => ⟨S32x256x56x56, .f32⟩
  | .hbm, ⟨7, _⟩ => ⟨S32x256x56x56, .i1⟩
  | .hbm, ⟨8, _⟩ => ⟨S32x256x56x56, .f32⟩
  | .hbm, ⟨9, _⟩ => ⟨S32x256x56x56, .f32⟩
  | .hbm, ⟨10, _⟩ => ⟨S32x256x56x56, .f32⟩
  | .hbm, ⟨11, _⟩ => ⟨S32x256x18x18, .f32⟩
  | .hbm, ⟨12, _⟩ => ⟨S32x256x18x3x18, .f32⟩
  | .hbm, ⟨13, _⟩ => ⟨S32x256x54x18, .f32⟩
  | .hbm, ⟨14, _⟩ => ⟨S32x256x54x18x3, .f32⟩
  | .hbm, ⟨15, _⟩ => ⟨S32x256x54x54, .f32⟩
  | .hbm, ⟨16, _⟩ => ⟨S_, .i32⟩
  | .hbm, ⟨17, _⟩ => ⟨S_, .f32⟩
  | .hbm, ⟨18, _⟩ => ⟨S32x256x56x56, .f32⟩
  | .hbm, ⟨19, _⟩ => ⟨S_, .f32⟩
  | .hbm, ⟨20, _⟩ => ⟨S32x256x56x56, .f32⟩
  | .hbm, ⟨21, _⟩ => ⟨S32x256x56x56, .f32⟩
  | .hbm, ⟨22, _⟩ => ⟨S32x256x56x56, .f32⟩
  | .hbm, ⟨23, _⟩ => ⟨S32x256x56x56, .f32⟩
  | .hbm, ⟨24, _⟩ => ⟨S_, .f32⟩
  | .hbm, ⟨25, _⟩ => ⟨S32x256x56x56, .f32⟩
  | .hbm, ⟨26, _⟩ => ⟨S32x256x56x56, .i1⟩
  | .hbm, ⟨27, _⟩ => ⟨S_, .f32⟩
  | .hbm, ⟨28, _⟩ => ⟨S32x256x56x56, .f32⟩
  | .hbm, ⟨29, _⟩ => ⟨S32x256x56x56, .f32⟩
  | .hbm, ⟨30, _⟩ => ⟨S32x256x56x56, .f32⟩
  | _, _ => ⟨S32x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_call0_v0 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  reducesTo_S32x256x56x56_S32x256_d2_3 : S32x256x56x56.ReducesTo [2, 3] S32x256
  h_S_ : 0 < S_.numel
  bcast_S32x256_S32x256x1x1_0_1 : S32x256.BroadcastsInDim S32x256x1x1 (![0, 1] : Fin 2 → Fin S32x256x1x1.rank)
  bcast_S32x256x1x1_S32x256x56x56_0_1_2_3 : S32x256x1x1.BroadcastsInDim S32x256x56x56 (![0, 1, 2, 3] : Fin 4 → Fin S32x256x56x56.rank)
  bcast_S32x256x18x18_S32x256x18x3x18_0_1_2_4 : S32x256x18x18.BroadcastsInDim S32x256x18x3x18 (![0, 1, 2, 4] : Fin 4 → Fin S32x256x18x3x18.rank)
  shapeCasts_S32x256x18x3x18_S32x256x54x18 : S32x256x18x3x18.ShapeCasts S32x256x54x18
  bcast_S32x256x54x18_S32x256x54x18x3_0_1_2_3 : S32x256x54x18.BroadcastsInDim S32x256x54x18x3 (![0, 1, 2, 3] : Fin 4 → Fin S32x256x54x18x3.rank)
  shapeCasts_S32x256x54x18x3_S32x256x54x54 : S32x256x54x18x3.ShapeCasts S32x256x54x54
  pads_S32x256x54x54_S32x256x56x56_000_000_020_020 : S32x256x54x54.Pads (![0, 0, 0, 0] : Fin 4 → Nat) ![0, 0, 2, 2] ![0, 0, 0, 0] S32x256x56x56
  bcast_S_S32x256x56x56 : S_.BroadcastsInDim S32x256x56x56 (![] : Fin 0 → Fin S32x256x56x56.rank)

variable [Facts₀]

class Facts : Prop extends Facts₀ where

variable [Facts]
-- ==== Proof.Spec.lean ====
/-
  What both programs compute, as one function of the three inputs.

  Arrays are indexed by (sample b, channel c, row h, column w), 32 × 256 × 56 × 56. For an activation array `act`, a 0/1 draw `rc` (a
  32-bit integer array) and a pixel-level mask `full`:

    peak(b, c)   = the largest activation of the 56 × 56 plane of channel c of sample b  (a supremum: it exists for any extended reals);
    pc(i)        = 1 if act(i) equals its plane's peak, else 0;
    out(i)       = 0.1 · act(i)   if  rc(i) · pc(i) + full(i) · (1 − pc(i)) ≥ 1,   else act(i),

  with 1 and 0.1 the binary values of the two float words both programs print. `cell` is the last two lines as a function of the four
  numbers it reads; `out` reads them off the arrays. The mask `full` stays an argument: both programs build it from the patch-level
  mask by the same chain of host operations, which is never opened.
-/
import Idealize.ShloMosaic.PureOps.Ideal
import Idealize.ShloMosaic.Lib.ValueIdx

noncomputable section

namespace Cert.Diversify

open Idealize.ShloMosaic Idealize.ShloMosaic.ValueIdx

/-- The arrays' shape: sample × channel × row × column. -/
abbrev SA : Shape := ⟨4, ![32, 256, 56, 56]⟩

/-- The spatial peak of channel `c` of sample `b`: the supremum of the plane's activations. -/
def peak (act : FVec Ideal SA .f32) (b : Fin 32) (c : Fin 256) : Ideal .f32 :=
  ⨆ h : Fin 56, ⨆ w : Fin 56, (act (ix4 b c h w) : EReal)

/-- One output element from its activation `a`, its draw `r`, its mask value `f` and its plane's peak `pk`. -/
def cell (a : Ideal .f32) (r : BitVec 32) (f : Ideal .f32) (pk : Ideal .f32) : Ideal .f32 :=
  Scalar.select
    (FloatOps.cmpf .oge
      (FloatOps.addf (FloatOps.mulf (FloatOps.sitofp .f32 r) (FloatOps.uitofp .f32 (FloatOps.cmpf .oeq a pk)))
        (FloatOps.mulf f (FloatOps.subf (FloatOps.ofBits .f32 0x3F800000#32) (FloatOps.uitofp .f32 (FloatOps.cmpf .oeq a pk)))))
      (FloatOps.ofBits .f32 0x3F800000#32))
    (FloatOps.mulf a (FloatOps.ofBits .f32 0x3DCCCCCD#32)) a

/-- The whole result array. -/
def out (act : FVec Ideal SA .f32) (rc : IVec SA 32) (full : FVec Ideal SA .f32) : FVec Ideal SA .f32 :=
  fun i => cell (act i) (rc i) (full i) (peak act (i 0) (i 1))

end Cert.Diversify

end
-- ==== Proof.LibPlaneMax.lean ====
/-
  A maximum accumulated from −∞ is a supremum (extended reals).

  Folding `max` from the bottom element `⊥` over a finite set gives the least upper bound of the values on that set, so the order in
  which the elements are visited, and any grouping of them, does not matter. Three forms:

  * `fold_max_bot_eq_iSup`   — over all of a finite type: the supremum of the family;
  * `fold_max_bot_nested`    — one axis at a time (the inner maxima first, then the maximum of those): the supremum over both axes;
  * `fold_max_bot_of_param`  — over any finite set that a two-parameter family of indices sweeps exactly (every member of the family
                               is in the set, every element of the set is a member): the same supremum over both parameters.

  Each is proved from the two universal properties alone: an upper bound of the accumulator and of every value bounds the fold
  (`Finset.fold_max_le`), and the fold is at least each value (`Finset.le_fold_max`). Nothing here needs the values to be finite.
-/
import Mathlib.Data.EReal.Basic
import Mathlib.Data.Finset.Fold

namespace PlaneMax

/-- The maximum from `⊥` over every element of a finite type is the supremum of the family. -/
theorem fold_max_bot_eq_iSup {ι : Type} [Fintype ι] (f : ι → EReal) :
    (Finset.univ : Finset ι).fold max ⊥ f = ⨆ i, f i := by
  apply le_antisymm
  · exact (Finset.fold_max_le _).mpr ⟨bot_le, fun i _ => le_iSup f i⟩
  · exact iSup_le fun i => (Finset.le_fold_max _).mpr (Or.inr ⟨i, Finset.mem_univ i, le_rfl⟩)

/-- Taken one axis at a time — for each `a` the maximum over `b`, then the maximum of those over `a` — the result is the
    supremum over both axes at once. -/
theorem fold_max_bot_nested {κ₁ κ₂ : Type} [Fintype κ₁] [Fintype κ₂] (y : κ₁ → κ₂ → EReal) :
    (Finset.univ : Finset κ₁).fold max ⊥ (fun a => (Finset.univ : Finset κ₂).fold max ⊥ (y a)) = ⨆ a, ⨆ b, y a b := by
  rw [fold_max_bot_eq_iSup]
  exact iSup_congr fun a => fold_max_bot_eq_iSup (y a)

/-- Over a finite set `s` that the family `g a b` sweeps exactly, the maximum from `⊥` of `x` is the supremum of `x (g a b)` over both
    parameters: each `x i` with `i ∈ s` is one of the `x (g a b)`, and each `x (g a b)` is the value at an element of `s`. -/
theorem fold_max_bot_of_param {ι κ₁ κ₂ : Type} (s : Finset ι) (g : κ₁ → κ₂ → ι) (x : ι → EReal)
    (hin : ∀ a b, g a b ∈ s) (hsur : ∀ i ∈ s, ∃ a b, g a b = i) :
    s.fold max ⊥ x = ⨆ a, ⨆ b, x (g a b) := by
  apply le_antisymm
  · refine (Finset.fold_max_le _).mpr ⟨bot_le, fun i hi => ?_⟩
    obtain ⟨a, b, rfl⟩ := hsur i hi
    exact le_iSup₂ (f := fun a b => x (g a b)) a b
  · exact iSup₂_le fun a b => (Finset.le_fold_max _).mpr (Or.inr ⟨g a b, hin a b, le_rfl⟩)

end PlaneMax
-- ==== Proof.RefIsSpec.lean ====
/-
  The reference computes `Cert.Diversify.out`.

  Read at an index (b, c, h, w), the reference's result is `cell` of the activation, the draw and the mask value there and of the value
  its spatial reduction holds at (b, c). That reduction is a maximum from −∞ over the set of array indices whose first two coordinates are
  (b, c); the indices (b, c, h', w') sweep that set exactly, so it is the supremum of the plane: `peak`.
-/
import proofs.«140340_j30468497998623_1_alg».proof.Proof.RefReadP
import proofs.«140340_j30468497998623_1_alg».proof.Proof.Spec
import proofs.«140340_j30468497998623_1_alg».proof.Proof.LibPlaneMax
import Idealize.ShloMosaic.PureOps.Reduce
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.ReadP
open Idealize.ShloMosaic Idealize.ShloMosaic.ValueIdx Cert.Diversify

/-- Dropping the two spatial axes of (b, c, h, w) leaves (b, c). -/
theorem drop_plane (b : Fin 32) (c : Fin 256) (h w : Fin 56) :
    reducesTo_S32x256x56x56_S32x256_d2_3.drop (ix4 b c h w) = ix2 b c := by
  funext a
  apply Fin.ext
  match a with
  | ⟨0, _⟩ => exact Shape.ReducesTo.drop_apply_val_of_eq reducesTo_S32x256x56x56_S32x256_d2_3 (ix4 b c h w) ⟨0, by decide⟩ (0 : Fin 4)
  | ⟨1, _⟩ => exact Shape.ReducesTo.drop_apply_val_of_eq reducesTo_S32x256x56x56_S32x256_d2_3 (ix4 b c h w) ⟨1, by decide⟩ (1 : Fin 4)

/-- The accumulator the reduction starts from is −∞, the bottom element. -/
theorem init_bot : (val_main_cst (F := Ideal) (Shape.Idx.first h_S_) : EReal) = ⊥ := by
  show Ideal.ofBits .f32 0xFF800000#32 = ⊥
  simp [Ideal.ofBits, Ideal.ieee]

/-- The reference's spatial maximum at (b, c) is the plane's supremum. -/
theorem reduce_eq_peak (x0 : (⟨S32x256x56x56, .f32⟩ : BufTy).Contents (Elt Ideal)) (b : Fin 32) (c : Fin 256) :
    val_main_v0 (F := Ideal) x0 (ix2 b c) = peak x0 b c := by
  unfold val_main_v0
  refine (Host.reduce_eq_fold (FloatOps.maximumf (F := Ideal) (φ := .f32)) x0 _ reducesTo_S32x256x56x56_S32x256_d2_3 h_S_ (ix2 b c)).trans ?_
  rw [init_bot]
  refine PlaneMax.fold_max_bot_of_param _ (fun h w => ix4 b c h w) x0
    (fun h w => Finset.mem_filter.mpr ⟨Finset.mem_univ _, drop_plane b c h w⟩) (fun i hi => ?_)
  obtain ⟨b', c', h, w, rfl⟩ : ∃ (b' : Fin 32) (c' : Fin 256) (h w : Fin 56), i = ix4 b' c' h w :=
    ⟨i 0, i 1, i 2, i 3, eq_ix4 i⟩
  have hd : ix2 b' c' = ix2 b c := (drop_plane b' c' h w).symm.trans (Finset.mem_filter.mp hi).2
  have hb : b' = b := congrFun hd (0 : Fin 2)
  have hc : c' = c := congrFun hd (1 : Fin 2)
  subst hb hc
  exact ⟨h, w, rfl⟩

/-- The two broadcasts carry the reduced value at (b, c) to every (b, c, h, w). -/
theorem bcast_idx (b : Fin 32) (c : Fin 256) (h w : Fin 56) : idx_main_v1 (idx_main_v2 (ix4 b c h w)) = ix2 b c := by
  funext a
  match a with
  | ⟨0, _⟩ => rfl
  | ⟨1, _⟩ => rfl

/-- THE REFERENCE IS `out`: its result as a function of the three arguments, the mask chain `val_main_v12` kept whole. -/
theorem result_eq (x0 : (⟨S32x256x56x56, .f32⟩ : BufTy).Contents (Elt Ideal)) (x1 : (⟨S32x256x56x56, .i32⟩ : BufTy).Contents (Elt Ideal))
    (x2 : (⟨S32x256x18x18, .i32⟩ : BufTy).Contents (Elt Ideal)) :
    val_main_v21 (F := Ideal) x0 x1 x2 = out x0 x1 (val_main_v12 (F := Ideal) x2) := by
  funext i
  obtain ⟨b, c, h, w, rfl⟩ : ∃ (b : Fin 32) (c : Fin 256) (h w : Fin 56), i = ix4 b c h w :=
    ⟨i 0, i 1, i 2, i 3, eq_ix4 i⟩
  rw [val_main_v21_apply, val_main_v18_apply, val_main_v16_apply, val_main_v6_apply, val_main_v15_apply, val_main_v14_apply,
    val_main_v5_apply, val_main_v4_apply, val_main_v3_apply, val_main_v2_apply, val_main_v1_apply, val_main_v13_apply,
    val_main_cst_0_apply, val_main_v17_apply, val_main_cst_1_apply, val_main_v20_apply, val_main_v19_apply, val_main_cst_2_apply,
    bcast_idx, reduce_eq_peak]
  rfl

end Cert.ReferenceIdeal.RefValue

end
-- ==== Proof.LibBitFloat.lean ====
/-
  A truth value turned into a number, two spellings (extended reals).

  A comparison yields a one-bit word. One program widens it to 32 bits with zeros and then converts the 32-bit word as a SIGNED integer;
  the other converts the one-bit word directly as an UNSIGNED integer. Both give the real number 0 for a false comparison and 1 for a
  true one: widening with zeros keeps the sign bit clear, so the signed reading of the wide word is the unsigned reading of the bit.
-/
import Idealize.ShloMosaic.PureOps.Ideal

namespace BitFloat

open Idealize.ShloMosaic

/-- The zero-extended bit, read signed, is the bit read unsigned (both are 0 or 1). -/
theorem toInt_setWidth_bit (b : BitVec 1) : (b.setWidth 32).toInt = (b.toNat : Int) := by
  rcases BitVec.eq_zero_or_eq_one b with h | h <;> subst h <;> decide

/-- Signed conversion of the zero-extended bit = unsigned conversion of the bit, as extended reals. -/
theorem sitofp_setWidth_bit (b : BitVec 1) :
    FloatOps.sitofp (F := Ideal) .f32 (b.setWidth 32) = FloatOps.uitofp (F := Ideal) .f32 b := by
  show (((b.setWidth 32).toInt : ℝ) : EReal) = ((b.toNat : ℝ) : EReal)
  rw [toInt_setWidth_bit, Int.cast_natCast]

end BitFloat
-- ==== Proof.BlockIsSpec.lean ====
/-
  One block of the kernel's result is `cell`, element by element.

  A block is one sample's 128 channels, each with its whole 56 × 56 plane: [1, 128, 56, 56]. The body takes each plane's maximum in two
  steps — along the columns, then along the rows — each a maximum accumulated from −∞; taken one axis at a time that is the supremum of
  the plane (`blockPeak`). The peak indicator is the comparison's bit widened with zeros and converted as a signed integer, which is the
  bit converted unsigned (`BitFloat.sitofp_setWidth_bit`). With these two facts the block's element at (0, c, h, w), as the generated
  index-by-index form `E3` states it, is `cell` of the three loaded values there and of the supremum of channel c's plane (`block_cell`).
-/
import proofs.«140340_j30468497998623_1_alg».proof.Proof.KernelValueP
import proofs.«140340_j30468497998623_1_alg».proof.Proof.Spec
import proofs.«140340_j30468497998623_1_alg».proof.Proof.LibPlaneMax
import proofs.«140340_j30468497998623_1_alg».proof.Proof.LibBitFloat
import Idealize.ShloMosaic.PureOps.Ideal.Laws
import Idealize.ShloMosaic.Lib.ValueIdx
import Idealize.ShloMosaic.Lib.Pipeline.Value

noncomputable section

namespace Cert.KernelIdeal.BlockValue

open Cert.KernelIdeal Cert.KernelIdeal.Gen Cert.KernelIdeal.ValueP
open Idealize.ShloMosaic Idealize.ShloMosaic.ValueIdx Cert.Diversify

/-- The accumulator both reductions start from is −∞, the bottom element. -/
theorem acc_bot : (FloatOps.ofBits (F := Ideal) .f32 0xFF800000#32 : EReal) = ⊥ := by
  show Ideal.ofBits .f32 0xFF800000#32 = ⊥
  simp [Ideal.ofBits, Ideal.ieee]

/-- First step: the maximum along the columns of row `h` of channel `c`. -/
theorem rowMax (P : FVec Ideal S1x128x56x56 .f32) (c : Fin 128) (h : Fin 56) :
    (multiReduction .maximumf [3] S1x128x56 P 0xFF800000#32 reduces_S1x128x56x56_S1x128x56 (.inl rfl) rfl) (ix3 0 c h)
      = (Finset.univ : Finset (Fin 56)).fold max ⊥ (fun w => (P (ix4 0 c h w) : EReal)) := by
  refine (Ideal.multiReduction_maximumf_single P 0xFF800000#32 reduces_S1x128x56x56_S1x128x56 (.inl rfl) rfl (ix3 0 c h)).trans ?_
  rw [acc_bot]
  have hl : ∀ w : Fin 56, reduces_S1x128x56x56_S1x128x56.lift (ix3 0 c h) w = ix4 0 c h w := fun w => by
    funext a; apply Fin.ext
    match a with | ⟨0, _⟩ => rfl | ⟨1, _⟩ => rfl | ⟨2, _⟩ => rfl | ⟨3, _⟩ => rfl
  exact congrArg (fun f : Fin 56 → EReal => Finset.fold max ⊥ f Finset.univ) (funext fun w => congrArg P (hl w))

/-- Second step, for ANY [1, 128, 56, 1] vector whose entry (0, c, k, 0) is `r k`: the maximum along the rows at channel `c`. -/
theorem colMax (S : FVec Ideal S1x128x56x1 .f32) (c : Fin 128) (r : Fin 56 → EReal) (hS : ∀ k : Fin 56, S (ix4 0 c k 0) = r k) :
    (multiReduction .maximumf [2] S1x128x1 S 0xFF800000#32 reduces_S1x128x56x1_S1x128x1 (.inl rfl) rfl) (ix3 0 c 0)
      = (Finset.univ : Finset (Fin 56)).fold max ⊥ r := by
  refine (Ideal.multiReduction_maximumf_single S 0xFF800000#32 reduces_S1x128x56x1_S1x128x1 (.inl rfl) rfl (ix3 0 c 0)).trans ?_
  rw [acc_bot]
  have hl : ∀ k : Fin 56, reduces_S1x128x56x1_S1x128x1.lift (ix3 0 c 0) k = ix4 0 c k 0 := fun k => by
    funext a; apply Fin.ext
    match a with | ⟨0, _⟩ => rfl | ⟨1, _⟩ => rfl | ⟨2, _⟩ => rfl | ⟨3, _⟩ => rfl
  exact congrArg (fun f : Fin 56 → EReal => Finset.fold max ⊥ f Finset.univ) (funext fun k => (congrArg S (hl k)).trans (hS k))

/-- Both steps: the maximum along the rows of the row maxima is the supremum of channel `c`'s plane. -/
theorem blockPeak (P : FVec Ideal S1x128x56x56 .f32) (c : Fin 128) :
    (multiReduction .maximumf [2] S1x128x1 (shapeCast S1x128x56x1 (multiReduction .maximumf [3] S1x128x56 P 0xFF800000#32 reduces_S1x128x56x56_S1x128x56 (.inl rfl) rfl) shapeCasts_S1x128x56_S1x128x56x1) 0xFF800000#32 reduces_S1x128x56x1_S1x128x1 (.inl rfl) rfl) (ix3 0 c 0)
      = ⨆ h : Fin 56, ⨆ w : Fin 56, (P (ix4 0 c h w) : EReal) := by
  refine (colMax _ c (fun k => (Finset.univ : Finset (Fin 56)).fold max ⊥ (fun w => (P (ix4 0 c k w) : EReal))) (fun k => ?_)).trans
    (PlaneMax.fold_max_bot_nested (fun h w => (P (ix4 0 c h w) : EReal)))
  refine (shapeCast_apply _ shapeCasts_S1x128x56_S1x128x56x1 (ix4 0 c k 0) (ix3 0 c k) ?_).trans (rowMax P c k)
  rw [Shape.rowMajor_val_three, Shape.rowMajor_val_four]
  show (0 * 128 + c.val) * 56 + k.val = ((0 * 128 + c.val) * 56 + k.val) * 1 + 0
  omega

/-- THE BLOCK, ELEMENT BY ELEMENT: at (0, c, h, w) the generated index-by-index form of what the body stores is `cell` of the three
    values loaded there and of the supremum of channel `c`'s plane of the activation block. -/
theorem block_cell (P0 : Vec Ideal S1x128x56x56 .i32) (P1 P2 : Vec Ideal S1x128x56x56 .f32) (c : Fin 128) (h w : Fin 56) :
    E3 P0 P1 P2 (ix4 0 c h w)
      = cell (P1 (ix4 0 c h w)) (P0 (ix4 0 c h w)) (P2 (ix4 0 c h w)) (⨆ h' : Fin 56, ⨆ w' : Fin 56, (P1 (ix4 0 c h' w') : EReal)) := by
  have i0 : ix3_0 (ix4 (0 : Fin 1) c h w) = ix4 0 c h w := by
    funext a; match a with | ⟨0, _⟩ => rfl | ⟨1, _⟩ => rfl | ⟨2, _⟩ => rfl | ⟨3, _⟩ => rfl
  have i1 : ix3_1 (ix4 (0 : Fin 1) c h w) = ix4 0 c h w := by
    funext a; match a with | ⟨0, _⟩ => rfl | ⟨1, _⟩ => rfl | ⟨2, _⟩ => rfl | ⟨3, _⟩ => rfl
  have i2 : ix3_2 (ix4 (0 : Fin 1) c h w) = ix3 0 c 0 := by
    funext a; match a with | ⟨0, _⟩ => rfl | ⟨1, _⟩ => rfl | ⟨2, _⟩ => rfl
  have i3 : ix3_3 (ix4 (0 : Fin 1) c h w) = ix4 0 c h w := by
    funext a; match a with | ⟨0, _⟩ => rfl | ⟨1, _⟩ => rfl | ⟨2, _⟩ => rfl | ⟨3, _⟩ => rfl
  have i4 : ix3_4 (ix4 (0 : Fin 1) c h w) = ix4 0 c h w := by
    funext a; match a with | ⟨0, _⟩ => rfl | ⟨1, _⟩ => rfl | ⟨2, _⟩ => rfl | ⟨3, _⟩ => rfl
  have i5 : ix3_5 (ix4 (0 : Fin 1) c h w) = ix3 0 c 0 := by
    funext a; match a with | ⟨0, _⟩ => rfl | ⟨1, _⟩ => rfl | ⟨2, _⟩ => rfl
  have i6 : ix3_6 (ix4 (0 : Fin 1) c h w) = ix4 0 c h w := by
    funext a; match a with | ⟨0, _⟩ => rfl | ⟨1, _⟩ => rfl | ⟨2, _⟩ => rfl | ⟨3, _⟩ => rfl
  have i7 : ix3_7 (ix4 (0 : Fin 1) c h w) = ix4 0 c h w := by
    funext a; match a with | ⟨0, _⟩ => rfl | ⟨1, _⟩ => rfl | ⟨2, _⟩ => rfl | ⟨3, _⟩ => rfl
  dsimp only [E3]
  rw [i0, i1, i2, i3, i4, i5, i6, i7, blockPeak P1 c, BitFloat.sitofp_setWidth_bit]
  rfl

end Cert.KernelIdeal.BlockValue

end
-- ==== Proof.KernelArray.lean ====
/-
  From the blocks to the whole result array.

  The grid has 32 × 2 points; point (b, q) stages, of each of the three operands and of the result, the block of sample b and channels
  128·q … 128·q + 127 with their whole planes. So element (0, c, h, w) of a block sits at (b, 128·q + c, h, w) of its array, and a channel's
  whole plane lies inside one block: the supremum of the block's plane is the array's `peak` at (b, 128·q + c). Hence what point (b, q)
  writes back is the (b, q) block of `out` of the arrays as the region finds them (`flushed_eq`); the 64 blocks tile the array (`cover`), so
  after the run the result array is `out` of them (`final`), and the run is the generated frame run with that array named (`run`).
-/
import proofs.«140340_j30468497998623_1_alg».proof.Proof.KernelValueP
import proofs.«140340_j30468497998623_1_alg».proof.Proof.BlockIsSpec
import proofs.«140340_j30468497998623_1_alg».proof.Proof.Spec
import Idealize.ShloMosaic.Lib.Pipeline.Value
import Idealize.ShloMosaic.Lib.ValueIdx

noncomputable section

namespace Cert.KernelIdeal.ArrayValue

open Cert.KernelIdeal Cert.KernelIdeal.Gen Cert.KernelIdeal.ValueP Cert.KernelIdeal.BlockValue
open Idealize.ShloMosaic Idealize.ShloMosaic.TcCoe Idealize.SL.Sem Idealize.ShloMosaic.ValueIdx Cert.Diversify
open Idealize.ShloMosaic.Pipeline (Dat)

theorem hz : (![0, 0, 0, 0] : Fin 4 → Nat) = fun _ => 0 := funext fun a => by fin_cases a <;> rfl

/-- Channel `c` of the `q`-th half of the 256 channels. -/
def chan (q : Fin 2) (c : Fin 128) : Fin 256 := ⟨q.val * 128 + c.val, by have := q.isLt; have := c.isLt; omega⟩

/-- A block triple that is the (b, q) block of three arrays yields, through the body, the (b, q) block of `out` of the arrays: the
    loaded values are the arrays' at (b, 128·q + c, h, w), and channel c's plane of the activation block is the array's plane there. -/
theorem out_block (act : FVec Ideal SA .f32) (rc : IVec SA 32) (full : FVec Ideal SA .f32)
    (x0 : Vec Ideal S1x128x56x56 .f32) (x1 : Vec Ideal S1x128x56x56 .i32) (x2 : Vec Ideal S1x128x56x56 .f32)
    (b : Fin 32) (q : Fin 2)
    (h0 : ∀ (c : Fin 128) (h w : Fin 56), x0 (ix4 0 c h w) = act (ix4 b (chan q c) h w))
    (h1 : ∀ (c : Fin 128) (h w : Fin 56), x1 (ix4 0 c h w) = rc (ix4 b (chan q c) h w))
    (h2 : ∀ (c : Fin 128) (h w : Fin 56), x2 (ix4 0 c h w) = full (ix4 b (chan q c) h w))
    (c : Fin 128) (h w : Fin 56) :
    out0_3 x0 x1 x2 (ix4 0 c h w) = out act rc full (ix4 b (chan q c) h w) := by
  unfold out0_3
  refine (canon3_eq _ _ _ (ix4 0 c h w)).trans ?_
  simp only [View.ld_unit_zero (S := S1x128x56x56) hz]
  rw [block_cell, h0 c h w, h1 c h w, h2 c h w]
  have hp : (⨆ h' : Fin 56, ⨆ w' : Fin 56, (x0 (ix4 0 c h' w') : EReal)) = peak act b (chan q c) := by
    unfold peak
    exact iSup_congr fun h' => iSup_congr fun w' => h0 c h' w'
  rw [hp]
  rfl

/-- The same at any block index `y` and any array index `i` with the coordinates of `y`'s element. -/
theorem out_block_at (act : FVec Ideal SA .f32) (rc : IVec SA 32) (full : FVec Ideal SA .f32)
    (x0 : Vec Ideal S1x128x56x56 .f32) (x1 : Vec Ideal S1x128x56x56 .i32) (x2 : Vec Ideal S1x128x56x56 .f32)
    (b : Fin 32) (q : Fin 2)
    (h0 : ∀ (c : Fin 128) (h w : Fin 56), x0 (ix4 0 c h w) = act (ix4 b (chan q c) h w))
    (h1 : ∀ (c : Fin 128) (h w : Fin 56), x1 (ix4 0 c h w) = rc (ix4 b (chan q c) h w))
    (h2 : ∀ (c : Fin 128) (h w : Fin 56), x2 (ix4 0 c h w) = full (ix4 b (chan q c) h w))
    (y : S1x128x56x56.Idx) (i : SA.Idx)
    (e0 : (i 0).val = b.val) (e1 : (i 1).val = q.val * 128 + (y 1).val) (e2 : (i 2).val = (y 2).val) (e3 : (i 3).val = (y 3).val) :
    out0_3 x0 x1 x2 y = out act rc full i := by
  obtain ⟨y0, c, h, w, rfl⟩ : ∃ (y0 : Fin 1) (c : Fin 128) (h w : Fin 56), y = ix4 y0 c h w := ⟨y 0, y 1, y 2, y 3, eq_ix4 y⟩
  obtain rfl : y0 = 0 := Subsingleton.elim _ _
  have hi : i = ix4 b (chan q c) h w := by
    funext a; apply Fin.ext
    match a with
    | ⟨0, _⟩ => exact e0
    | ⟨1, _⟩ => exact e1
    | ⟨2, _⟩ => exact e2
    | ⟨3, _⟩ => exact e3
  rw [hi]
  exact out_block act rc full x0 x1 x2 b q h0 h1 h2 c h w

variable (m : (ℓ : Loc nD τ sig) → Buf (Elt Ideal) ℓ) (ρ : Dev nD → PrngReg)

/-- The printed index maps, decided over the 64 grid points: every operand's block moves with the result's, on the sample and
    channel-half axes only, within 32 samples and 2 halves. -/
theorem idx_facts : ∀ t : Fin cfg0.N,
    win0_0.index t (0 : Fin 4) = win0_3.index t (0 : Fin 4) ∧ win0_0.index t (1 : Fin 4) = win0_3.index t (1 : Fin 4)
    ∧ win0_0.index t (2 : Fin 4) = 0 ∧ win0_0.index t (3 : Fin 4) = 0
    ∧ win0_1.index t (0 : Fin 4) = win0_3.index t (0 : Fin 4) ∧ win0_1.index t (1 : Fin 4) = win0_3.index t (1 : Fin 4)
    ∧ win0_1.index t (2 : Fin 4) = 0 ∧ win0_1.index t (3 : Fin 4) = 0
    ∧ win0_2.index t (0 : Fin 4) = win0_3.index t (0 : Fin 4) ∧ win0_2.index t (1 : Fin 4) = win0_3.index t (1 : Fin 4)
    ∧ win0_2.index t (2 : Fin 4) = 0 ∧ win0_2.index t (3 : Fin 4) = 0
    ∧ win0_3.index t (0 : Fin 4) < 32 ∧ win0_3.index t (1 : Fin 4) < 2
    ∧ win0_3.index t (2 : Fin 4) = 0 ∧ win0_3.index t (3 : Fin 4) = 0 :=
  (by decide +kernel : ∀ t : Fin grid0.N, _)

/-- Every (sample, channel-half) pair is some point's block. -/
theorem idx_onto : ∀ (q0 : Fin 32) (q1 : Fin 2), ∃ t : Fin cfg0.N, win0_3.index t = ![q0.val, q1.val, 0, 0] :=
  (by decide +kernel : ∀ (q0 : Fin 32) (q1 : Fin 2), ∃ t : Fin grid0.N, win0_3.index t = ![q0.val, q1.val, 0, 0])

/-- WHAT POINT `t` WRITES BACK is block `t` of `out` of the activation, the draw and the pixel-level mask as the region finds them. -/
theorem flushed_eq (c : Dev nD) (t : Fin cfg0.N) :
    (dats m 0 c).flushed 3 t
      = ((cfg0.win 3).blk t).view.read (Elt Ideal) (out (V m c main_arg0) (V m c main_arg1) (V m c main_v5)) := by
  rw [flushed3]
  obtain ⟨a00, a01, a02, a03, a10, a11, a12, a13, a20, a21, a22, a23, lb, lq, z2, z3⟩ := idx_facts t
  funext y
  show out0_3 (iblk m c 0 t) (iblk m c 1 t) (iblk m c 2 t) y
      = out (V m c main_arg0) (V m c main_arg1) (V m c main_v5) (((cfg0.win 3).blk t).view.emb y)
  refine out_block_at (V m c main_arg0) (V m c main_arg1) (V m c main_v5) (iblk m c 0 t) (iblk m c 1 t) (iblk m c 2 t)
    ⟨win0_3.index t (0 : Fin 4), lb⟩ ⟨win0_3.index t (1 : Fin 4), lq⟩ ?_ ?_ ?_ y _ ?_ ?_ ?_ ?_
  · intro c' h' w'
    show V m c main_arg0 (((cfg0.win 0).blk t).view.emb (ix4 0 c' h' w')) = V m c main_arg0 (ix4 _ _ h' w')
    refine congrArg _ ?_
    funext a; apply Fin.ext
    match a with
    | ⟨0, _⟩ => show win0_0.index t (0 : Fin 4) * 1 + 1 * 0 = win0_3.index t (0 : Fin 4); omega
    | ⟨1, _⟩ => show win0_0.index t (1 : Fin 4) * 128 + 1 * c'.val = win0_3.index t (1 : Fin 4) * 128 + c'.val; omega
    | ⟨2, _⟩ => show win0_0.index t (2 : Fin 4) * 56 + 1 * h'.val = h'.val; omega
    | ⟨3, _⟩ => show win0_0.index t (3 : Fin 4) * 56 + 1 * w'.val = w'.val; omega
  · intro c' h' w'
    show V m c main_arg1 (((cfg0.win 1).blk t).view.emb (ix4 0 c' h' w')) = V m c main_arg1 (ix4 _ _ h' w')
    refine congrArg _ ?_
    funext a; apply Fin.ext
    match a with
    | ⟨0, _⟩ => show win0_1.index t (0 : Fin 4) * 1 + 1 * 0 = win0_3.index t (0 : Fin 4); omega
    | ⟨1, _⟩ => show win0_1.index t (1 : Fin 4) * 128 + 1 * c'.val = win0_3.index t (1 : Fin 4) * 128 + c'.val; omega
    | ⟨2, _⟩ => show win0_1.index t (2 : Fin 4) * 56 + 1 * h'.val = h'.val; omega
    | ⟨3, _⟩ => show win0_1.index t (3 : Fin 4) * 56 + 1 * w'.val = w'.val; omega
  · intro c' h' w'
    show V m c main_v5 (((cfg0.win 2).blk t).view.emb (ix4 0 c' h' w')) = V m c main_v5 (ix4 _ _ h' w')
    refine congrArg _ ?_
    funext a; apply Fin.ext
    match a with
    | ⟨0, _⟩ => show win0_2.index t (0 : Fin 4) * 1 + 1 * 0 = win0_3.index t (0 : Fin 4); omega
    | ⟨1, _⟩ => show win0_2.index t (1 : Fin 4) * 128 + 1 * c'.val = win0_3.index t (1 : Fin 4) * 128 + c'.val; omega
    | ⟨2, _⟩ => show win0_2.index t (2 : Fin 4) * 56 + 1 * h'.val = h'.val; omega
    | ⟨3, _⟩ => show win0_2.index t (3 : Fin 4) * 56 + 1 * w'.val = w'.val; omega
  · show win0_3.index t (0 : Fin 4) * 1 + 1 * (y 0).val = win0_3.index t (0 : Fin 4)
    have hy : (y 0).val < 1 := (y 0).isLt
    omega
  · show win0_3.index t (1 : Fin 4) * 128 + 1 * (y 1).val = win0_3.index t (1 : Fin 4) * 128 + (y 1).val
    omega
  · show win0_3.index t (2 : Fin 4) * 56 + 1 * (y 2).val = (y 2).val
    omega
  · show win0_3.index t (3 : Fin 4) * 56 + 1 * (y 3).val = (y 3).val
    omega

/-- An index of the array is in point `t`'s block iff each coordinate is in the block's range on its axis. -/
theorem mem_blk (t : Fin cfg0.N) (i : S32x256x56x56.Idx) :
    i ∈ ((cfg0.win 3).blk t).view.set ↔ ∀ a : Fin 4, win0_3.index t a * S1x128x56x56.size a ≤ (i a).val ∧ (i a).val < win0_3.index t a * S1x128x56x56.size a + S1x128x56x56.size a := by
  show i ∈ ((View.whole main_v6).slice (win0_3.rect t)).set ↔ _
  rw [View.set_slice_whole, Rect.mem_set_unit]
  exact Iff.rfl

/-- The blocks tile the array: index (b, ch, h, w) is in the block of the point whose block index is (b, ch / 128, 0, 0). -/
theorem cover (i : S32x256x56x56.Idx) : ∃ t : Fin cfg0.N, (cfg0.win 3).flush t = true ∧ i ∈ ((cfg0.win 3).blk t).view.set := by
  have hi0 : (i 0).val < 32 := (i 0).isLt
  have hi1 : (i 1).val < 256 := (i 1).isLt
  have hi2 : (i 2).val < 56 := (i 2).isLt
  have hi3 : (i 3).val < 56 := (i 3).isLt
  obtain ⟨t, ht⟩ := idx_onto ⟨(i 0).val, hi0⟩ ⟨(i 1).val / 128, by omega⟩
  have q0 : win0_3.index t (0 : Fin 4) = (i 0).val := congrFun ht 0
  have q1 : win0_3.index t (1 : Fin 4) = (i 1).val / 128 := congrFun ht 1
  have q2 : win0_3.index t (2 : Fin 4) = 0 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 128 ≤ (i 1).val ∧ (i 1).val < win0_3.index t (1 : Fin 4) * 128 + 128; omega
  | ⟨2, _⟩ => show win0_3.index t (2 : Fin 4) * 56 ≤ (i 2).val ∧ (i 2).val < win0_3.index t (2 : Fin 4) * 56 + 56; omega
  | ⟨3, _⟩ => show win0_3.index t (3 : Fin 4) * 56 ≤ (i 3).val ∧ (i 3).val < win0_3.index t (3 : Fin 4) * 56 + 56; omega

/-- THE RESULT ARRAY after the run is `out` of the arrays as the region finds them. -/
theorem final (c : Dev nD) :
    (dats m 0 c).arrAt 3 cfg0.N = out (V m c main_arg0) (V m c main_arg1) (V m c main_v5) :=
  (dats m 0 c).arrAt_eq_of_cover 3 _ (fun t _ => flushed_eq m c t) cover

/-- The frame run re-posted: the result array at `out`, the arguments unchanged. -/
theorem run : θ_run defs (onTc (τ := τ) (main (F := Ideal))) ⟨m, fun _ => 0, ρ⟩ fun r => ∀ c : Dev nD,
      r.2.mem ((c : Thread nD τ).loc main_v6) = out (V m c main_arg0) (V m c main_arg1) (V m c main_v5)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.ArrayValue

end
-- ==== Proof.MaskBridge.lean ====
/-
  The pixel-level mask is one function of the patch-level mask in both programs.

  Before its region the kernel's program converts the patch-level mask to floats, repeats every entry three times along the rows and three
  times along the columns (a broadcast into a new axis of extent 3 followed by a reshape, twice) and pads the 54 × 54 planes with zeros to
  56 × 56; the region's third operand is the array these operations leave. The reference applies the same operations, in the same order
  and with the same dimension numbers, to the same argument. So the array the region finds is the reference's mask stage of the argument;
  the chain itself is never opened.
-/
import proofs.«140340_j30468497998623_1_alg».proof.Proof.Gen.KernelIdeal.Frame
import proofs.«140340_j30468497998623_1_alg».proof.Proof.RefReadP
import Idealize.ShloMosaic.Lib.StableHlo.Run
import Idealize.ShloMosaic.PureOps.Ideal

noncomputable section

namespace Cert.Proof.Mask

open Idealize.ShloMosaic Idealize.ShloMosaic.TcCoe Idealize.SL.Sem Idealize.ShloMosaic.StableHlo
open Cert.KernelIdeal Cert.KernelIdeal.Gen

/-- What the region finds in its third operand's array is the reference's mask stage of the patch-level mask argument. -/
theorem mask_eq (m : (ℓ : Loc nD τ sig) → Buf (Elt Ideal) ℓ) (c : Dev nD) :
    (V m c main_v5 : S32x256x56x56.Idx → EReal)
      = Cert.ReferenceIdeal.ReadP.val_main_v12 (F := Ideal) (m ((c : Thread nD τ).loc main_arg2)) := by
  dsimp only [V]
  simp only [hostOps0, hostOps0_1, List.flatten_cons, List.flatten_nil, List.append_nil, List.cons_append, List.nil_append]
  after_results
  rfl

end Cert.Proof.Mask

end
-- ==== Proof.lean ====
/-
  The certificate: a peak-dropout kernel against its jnp reference, as extended reals.

  Both programs compute, for an activation array, a 0/1 draw and a patch-level mask,
      out(i) = 0.1 · act(i)  if  rc(i) · pc(i) + full(i) · (1 − pc(i)) ≥ 1,  else act(i),
  where pc(i) indicates that act(i) is the maximum of its 56 × 56 plane and `full` is the patch-level mask repeated 3 × 3 and padded
  with zeros (Proof/Spec.lean). The kernel takes the plane's maximum one axis at a time inside blocks of 128 channels and converts the
  peak indicator through a 32-bit integer; the reference reduces both axes at once and converts the bit directly. Over the extended reals
  a maximum accumulated from −∞ is the plane's supremum however it is grouped (Proof/LibPlaneMax.lean), and the two conversions agree on a
  bit (Proof/LibBitFloat.lean); no other law is needed, so the finiteness precondition is never opened.

  The parts: the reference's result is `out` (Proof/RefIsSpec.lean); each block the kernel writes back is `out`'s block
  (Proof/BlockIsSpec.lean) and the blocks tile the array (Proof/KernelArray.lean); the mask both sides read is one function of the
  argument (Proof/MaskBridge.lean). The frames are the generated ones, the reference's its run with the result dropped; the idealization
  rewrote nothing, so `preserves` is trivial.
-/
import proofs.«140340_j30468497998623_1_alg».proof.Defs
import proofs.«140340_j30468497998623_1_alg».proof.Proof.Gen.Kernel
import proofs.«140340_j30468497998623_1_alg».proof.Proof.Gen.Kernel.Skeleton
import proofs.«140340_j30468497998623_1_alg».proof.Proof.Gen.Kernel.Launch
import proofs.«140340_j30468497998623_1_alg».proof.Proof.Gen.Kernel.Points
import proofs.«140340_j30468497998623_1_alg».proof.Proof.Gen.Kernel.Frame
import proofs.«140340_j30468497998623_1_alg».proof.Proof.Gen.KernelIdeal
import proofs.«140340_j30468497998623_1_alg».proof.Proof.Gen.KernelIdeal.Skeleton
import proofs.«140340_j30468497998623_1_alg».proof.Proof.Gen.KernelIdeal.Launch
import proofs.«140340_j30468497998623_1_alg».proof.Proof.Gen.KernelIdeal.Points
import proofs.«140340_j30468497998623_1_alg».proof.Proof.Gen.KernelIdeal.Frame
import proofs.«140340_j30468497998623_1_alg».proof.Proof.Gen.ReferenceIdeal
import proofs.«140340_j30468497998623_1_alg».proof.Proof.Gen.Pre_finite_inputs
import proofs.«140340_j30468497998623_1_alg».proof.Proof.KernelValueP
import proofs.«140340_j30468497998623_1_alg».proof.Proof.RefRunP
import proofs.«140340_j30468497998623_1_alg».proof.Proof.RefReadP
import proofs.«140340_j30468497998623_1_alg».proof.Proof.RefIsSpec
import proofs.«140340_j30468497998623_1_alg».proof.Proof.KernelArray
import proofs.«140340_j30468497998623_1_alg».proof.Proof.MaskBridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- Both runs end with the result array at `out` of the activation, the draw and the pixel-level mask: the kernel's by its blocks, the
    reference's by its operations read at an index; the arguments agree, and the mask is the same function of the third one. -/
theorem algebraic : Cert.algebraic_KernelIdeal_ReferenceIdeal := by
  intro m ρ m' ρ' _ hagree
  refine ⟨fun c => Cert.Diversify.out (Cert.KernelIdeal.Gen.V m c Cert.KernelIdeal.main_arg0)
      (Cert.KernelIdeal.Gen.V m c Cert.KernelIdeal.main_arg1) (Cert.KernelIdeal.Gen.V m c Cert.KernelIdeal.main_v5),
    Cert.KernelIdeal.ArrayValue.run m ρ, ?_⟩
  refine (θ_run Cert.ReferenceIdeal.defs _ _).mono (fun _ h c => ⟨(h c).1.trans ?_, (h c).2⟩)
    (Cert.ReferenceIdeal.RunP.run (F := Ideal) m' ρ')
  show _ = Cert.Diversify.out (Cert.KernelIdeal.Gen.V m c Cert.KernelIdeal.main_arg0)
    (Cert.KernelIdeal.Gen.V m c Cert.KernelIdeal.main_arg1) (Cert.KernelIdeal.Gen.V m c Cert.KernelIdeal.main_v5)
  rw [Cert.ReferenceIdeal.ReadP.val_main_v21_eq, Cert.ReferenceIdeal.RefValue.result_eq, (hagree c).1, (hagree c).2.1, (hagree c).2.2,
    Cert.KernelIdeal.Gen.V_main_arg0 m c, Cert.KernelIdeal.Gen.V_main_arg1 m c, Cert.Proof.Mask.mask_eq m c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
